-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : IVec S16384x4096 32) (main_arg2 : FVec F S16384 .f32) (main_arg3 : IVec S16384 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  main_v8
-- ==== Kernel.lean ====
abbrev S4x2048x4096 : Shape := ⟨3, ![4, 2048, 4096]⟩
abbrev S16384x4096 : Shape := ⟨2, ![16384, 4096]⟩
abbrev S16384 : Shape := ⟨1, ![16384]⟩
abbrev S8192x4096 : Shape := ⟨2, ![8192, 4096]⟩
abbrev S1x16384 : Shape := ⟨2, ![1, 16384]⟩
abbrev S8192x16384 : Shape := ⟨2, ![8192, 16384]⟩
abbrev S1024x1024 : Shape := ⟨2, ![1024, 1024]⟩
abbrev S1x1024 : Shape := ⟨2, ![1, 1024]⟩
abbrev S1024x1 : Shape := ⟨2, ![1024, 1]⟩
abbrev S1024 : Shape := ⟨1, ![1024]⟩
abbrev S4x2048x16384 : Shape := ⟨3, ![4, 2048, 16384]⟩

abbrev nBuf : Space → Nat
  | .hbm => 12
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S16384, .i32⟩
  | .hbm, ⟨4, _⟩ => ⟨S8192x4096, .f32⟩
  | .hbm, ⟨5, _⟩ => ⟨S8192x4096, .bf16⟩
  | .hbm, ⟨6, _⟩ => ⟨S16384x4096, .bf16⟩
  | .hbm, ⟨7, _⟩ => ⟨S1x16384, .f32⟩
  | .hbm, ⟨8, _⟩ => ⟨S16384, .f32⟩
  | .hbm, ⟨9, _⟩ => ⟨S1x16384, .f32⟩
  | .hbm, ⟨10, _⟩ => ⟨S8192x16384, .f32⟩
  | .hbm, ⟨11, _⟩ => ⟨S4x2048x16384, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 16, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  bitsLt_bf16_f32 : FTy.bits .bf16 < FTy.bits .f32
  shapeCasts_S16384_S1x16384 : S16384.ShapeCasts S1x16384
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024 : S1024x1024.Reduces [1] S1024
  shapeCasts_S1024_S1024x1 : S1024.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  shapeCasts_S8192x16384_S4x2048x16384 : S8192x16384.ShapeCasts S4x2048x16384
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x4096.size a
  hwx0_1 : ∀ i : grid0.Coords, EltTy.bits .bf16 = 32 ∨ (Rect.block (s := S16384x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x16384.size a
  hwx0_4 : ∀ i : grid0.Coords, EltTy.bits .f32 = 32 ∨ (Rect.block (s := S8192x16384) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S16384x1 : Shape := ⟨2, ![16384, 1]⟩
abbrev S4x2048x16384 : Shape := ⟨3, ![4, 2048, 16384]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S16384, .i32⟩
  | .hbm, ⟨4, _⟩ => ⟨S16384x4096, .f32⟩
  | .hbm, ⟨5, _⟩ => ⟨S16384, .f32⟩
  | .hbm, ⟨6, _⟩ => ⟨S16384x1, .f32⟩
  | .hbm, ⟨7, _⟩ => ⟨S16384x4096, .f32⟩
  | .hbm, ⟨8, _⟩ => ⟨S16384x4096, .f32⟩
  | .hbm, ⟨9, _⟩ => ⟨S16384x1, .f32⟩
  | .hbm, ⟨10, _⟩ => ⟨S16384x4096, .f32⟩
  | .hbm, ⟨11, _⟩ => ⟨S16384x4096, .f32⟩
  | .hbm, ⟨12, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Spec.lean ====
/-
  A linear layer whose weight matrix is stored as integers with one scale and one zero point per output channel.

  The inputs are `x` (4 × 2048 rows of 4096 features), the integer matrix `q` (16384 output channels × 4096 features),
  and per channel `n` a scale `s n` and an integer zero point `z n`. The weight of channel `n` at feature `i` is
  `(q n i − z n) · s n`, and the result at row `(b, r)` and channel `n` is the inner product of the row with that channel's
  weights. Two arrangements of this number are stated here.

  `dequantThenDot`: form the weights first and contract over all 4096 features at once.

  `dotThenCorrect`: contract the row with the raw integers, the features taken in four blocks of 1024; subtract the zero
  point times the row's own sum (taken in the same four blocks); multiply by the scale once at the end. This rests on
      ∑ᵢ xᵢ · ((qᵢ − z) · s)  =  s · (∑ᵢ xᵢ · qᵢ  −  (∑ᵢ xᵢ) · z),
  which is distributivity and so needs every `xᵢ` and `s` to be a real number: on the extended reals it fails at the
  infinities (an infinite `x` against `q = z` gives `∞ · 0 = 0` on the left and `∞ − ∞` on the right).
-/
import Idealize.ShloMosaic.PureOps.Ideal
import Idealize.ShloMosaic.Lib.ValueIdx

noncomputable section

namespace Cert.QLinear

open Idealize.ShloMosaic Idealize.ShloMosaic.ValueIdx

/-- A signed 32-bit word read as an extended real: the integer it denotes. -/
abbrev ofInt (w : BitVec 32) : EReal := ((w.toInt : ℝ) : EReal)

/-- Feature `kb · 1024 + kk` of the 4096: feature `kk` of the `kb`-th block of 1024. -/
abbrev blockCol (kb : Fin 4) (kk : Fin 1024) : Fin 4096 := ⟨kb.val * 1024 + kk.val, by omega⟩

variable (x : (⟨3, ![4, 2048, 4096]⟩ : Shape).Idx → EReal) (q : (⟨2, ![16384, 4096]⟩ : Shape).Idx → BitVec 32)
  (s : (⟨1, ![16384]⟩ : Shape).Idx → EReal) (z : (⟨1, ![16384]⟩ : Shape).Idx → BitVec 32)

/-- Row `(b, r)` against channel `n`: the weights `(q − z) · s` formed first, then one contraction over the 4096 features. -/
def dequantThenDot (b : Fin 4) (r : Fin 2048) (n : Fin 16384) : EReal :=
  ∑ i : Fin 4096, x (ix3 b r i) * ((ofInt (q (ix2 n i)) - ofInt (z (ix1 n))) * s (ix1 n))

/-- Row `(b, r)` against channel `n`: the raw integers contracted block by block, corrected by the zero point times the
    row's sum, and scaled once. -/
def dotThenCorrect (b : Fin 4) (r : Fin 2048) (n : Fin 16384) : EReal :=
  s (ix1 n) * ((∑ kb : Fin 4, ∑ kk : Fin 1024, x (ix3 b r (blockCol kb kk)) * ofInt (q (ix2 n (blockCol kb kk))))
    - (∑ kb : Fin 4, ∑ kk : Fin 1024, x (ix3 b r (blockCol kb kk))) * ofInt (z (ix1 n)))

/-- The result array, entry `(b, r, n)`, in the first arrangement. -/
def result : (⟨3, ![4, 2048, 16384]⟩ : Shape).Idx → EReal :=
  fun j => dequantThenDot x q s z ⟨(j 0).val, (j 0).isLt⟩ ⟨(j 1).val, (j 1).isLt⟩ ⟨(j 2).val, (j 2).isLt⟩

/-- The result array, entry `(b, r, n)`, in the second arrangement. -/
def resultBlocked : (⟨3, ![4, 2048, 16384]⟩ : Shape).Idx → EReal :=
  fun j => dotThenCorrect x q s z ⟨(j 0).val, (j 0).isLt⟩ ⟨(j 1).val, (j 1).isLt⟩ ⟨(j 2).val, (j 2).isLt⟩

/-- A sum over the 4096 features is the sum over the four blocks of the sums over each block's 1024 features:
    `(kb, kk) ↦ kb · 1024 + kk` is a bijection from `Fin 4 × Fin 1024` onto `Fin 4096`. -/
theorem sum_eq_sum_blocks {M : Type*} [AddCommMonoid M] (f : Fin 4096 → M) :
    ∑ i : Fin 4096, f i = ∑ kb : Fin 4, ∑ kk : Fin 1024, f (blockCol kb kk) := by
  rw [← Fintype.sum_prod_type']
  refine (Fintype.sum_equiv (finProdFinEquiv (m := 4) (n := 1024)) _ _ fun p => ?_).symm
  refine congrArg f (Fin.ext ?_)
  show p.1.val * 1024 + p.2.val = p.2.val + 1024 * p.1.val
  omega

/-- The embedding of the reals in the extended reals commutes with finite sums. -/
theorem coe_sum_real {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Distributivity over the reals: `S · (∑ᵢ Xᵢ · Qᵢ − (∑ᵢ Xᵢ) · Z) = ∑ᵢ Xᵢ · ((Qᵢ − Z) · S)`. -/
theorem real_scale_mul_sub {ι : Type*} (t : Finset ι) (X Q : ι → ℝ) (Z S : ℝ) :
    S * ((∑ i ∈ t, X i * Q i) - (∑ i ∈ t, X i) * Z) = ∑ i ∈ t, X i * ((Q i - Z) * S) := by
  rw [Finset.sum_mul, ← Finset.sum_sub_distrib, Finset.mul_sum]
  exact Finset.sum_congr rfl fun i _ => by ring

/-- The same identity for real numbers seen in the extended reals, the left side summed block by block: both sides are
    the embedding of a real number, the blocks are put back into one sum over the 4096 features, and the identity over
    the reals is applied under the embedding. -/
theorem blocked_scale_mul_sub (X Q : Fin 4096 → ℝ) (Z S : ℝ) :
    (S : EReal) * ((∑ kb : Fin 4, ∑ kk : Fin 1024, (X (blockCol kb kk) : EReal) * (Q (blockCol kb kk) : EReal))
        - (∑ kb : Fin 4, ∑ kk : Fin 1024, (X (blockCol kb kk) : EReal)) * (Z : EReal))
      = ∑ i : Fin 4096, (X i : EReal) * (((Q i : EReal) - (Z : EReal)) * (S : EReal)) := by
  rw [← sum_eq_sum_blocks (fun i => (X i : EReal) * (Q i : EReal)), ← sum_eq_sum_blocks (fun i => (X i : EReal))]
  simp only [← EReal.coe_mul, ← EReal.coe_sub, ← coe_sum_real]
  exact congrArg _ (real_scale_mul_sub Finset.univ X Q Z S)

/-- The two arrangements agree when every entry of `x` and every scale is a real number. -/
theorem dotThenCorrect_eq_dequantThenDot (hx : ∀ i, ∃ a : ℝ, x i = (a : EReal)) (hs : ∀ i, ∃ a : ℝ, s i = (a : EReal))
    (b : Fin 4) (r : Fin 2048) (n : Fin 16384) :
    dotThenCorrect x q s z b r n = dequantThenDot x q s z b r n := by
  -- Every entry of `x` and every scale is the embedding of a real number; name those reals and substitute.
  choose xr hxr using hx
  choose sr hsr using hs
  obtain rfl : x = fun i => ((xr i : ℝ) : EReal) := funext hxr
  obtain rfl : s = fun i => ((sr i : ℝ) : EReal) := funext hsr
  -- What is left is the blocked identity for the row `(b, r)`, the integers of channel `n`, its zero point and scale.
  exact blocked_scale_mul_sub (fun i => xr (ix3 b r i)) (fun i => ((q (ix2 n i)).toInt : ℝ))
    ((z (ix1 n)).toInt : ℝ) (sr (ix1 n))

/-- So do the two result arrays. -/
theorem resultBlocked_eq_result (hx : ∀ i, ∃ a : ℝ, x i = (a : EReal)) (hs : ∀ i, ∃ a : ℝ, s i = (a : EReal)) :
    resultBlocked x q s z = result x q s z :=
  funext fun _ => dotThenCorrect_eq_dequantThenDot x q s z hx hs _ _ _

end Cert.QLinear

end
-- ==== Proof.Finite.lean ====
/-
  From the precondition to "every entry is a real number".

  The precondition is the conjunction of two tests, one on the activations x and one on the scales s: every entry's
  absolute value is below +∞. On the extended reals |x| = max x (−x), which is +∞ exactly at the two infinities, so an
  entry that passes the test is a real number.
-/
import proofs.«116233_j2362232013179_2_alg».proof.Pre_finite_inputs
import Idealize.ShloMosaic.Lib.ReduceAll
import Idealize.ShloMosaic.Lib.ValueIdx
import Idealize.ShloMosaic.PureOps.Ideal

noncomputable section

namespace Cert.QLinear.Finite

open Idealize.ShloMosaic Idealize.ShloMosaic.ValueIdx

/-- The pattern 0x7F800000 (sign 0, exponent all ones, fraction 0) denotes +∞. -/
theorem ofBits_inf : Ideal.ofBits .f32 0x7F800000#32 = (⊤ : EReal) := by
  simp [Ideal.ofBits, Ideal.ieee]

/-- An extended real whose absolute value max x (−x) is below +∞ is a real number: at ⊤ the maximum is ⊤, and at ⊥ it
    is −⊥ = ⊤. -/
theorem real_of_abs_lt_top (x : EReal) (h : max x (-x) < ⊤) : ∃ a : ℝ, x = (a : EReal) := by
  induction x using EReal.rec with
  | bot => exact absurd h (by simp)
  | coe a => exact ⟨a, rfl⟩
  | top => exact absurd h (by simp)

/-- One entry's test read back: the comparison |x| < +∞ returning the bit 1 says x is a real number. -/
theorem real_of_test (x : Ideal .f32)
    (h : FloatOps.cmpf .olt (FloatOps.hostAbsf x) (FloatOps.ofBits (F := Ideal) .f32 0x7F800000#32) = 1#1) :
    ∃ a : ℝ, (x : EReal) = (a : EReal) := by
  have h' : Ideal.cmp .olt (max (x : EReal) (-(x : EReal))) (Ideal.ofBits .f32 0x7F800000#32) = 1#1 := h
  rw [ofBits_inf] at h'
  unfold Ideal.cmp at h'
  by_cases hlt : max (x : EReal) (-(x : EReal)) < ⊤
  · exact real_of_abs_lt_top x hlt
  · simp [hlt] at h'

/-- The scalar shape has one index. -/
instance : Subsingleton Cert.Pre_finite_inputs.S_.Idx := ⟨fun a b => funext fun d => d.elim0⟩

/-- The precondition holding says every activation and every scale is a real number. -/
theorem finite_of_fn [Cert.Pre_finite_inputs.Facts] (x0 : FVec Ideal Cert.Pre_finite_inputs.S4x2048x4096 .f32)
    (x1 : IVec Cert.Pre_finite_inputs.S16384x4096 32) (x2 : FVec Ideal Cert.Pre_finite_inputs.S16384 .f32)
    (x3 : IVec Cert.Pre_finite_inputs.S16384 32)
    (h : Cert.Pre_finite_inputs.fn (F := Ideal) x0 x1 x2 x3 = fun _ => 1#1) :
    (∀ i, ∃ a : ℝ, x0 i = (a : EReal)) ∧ (∀ i, ∃ a : ℝ, x2 i = (a : EReal)) := by
  have h0 := congrFun h ix0
  dsimp only [Cert.Pre_finite_inputs.fn] at h0
  obtain ⟨ha, hb⟩ := IntOp.andi_eq_one.1 h0
  exact ⟨fun i => real_of_test (x0 i) (Host.reduce_andi_all _ _ _ _ _ ha i),
    fun i => real_of_test (x2 i) (Host.reduce_andi_all _ _ _ _ _ hb i)⟩

end Cert.QLinear.Finite

end
-- ==== Proof.RefValue.lean ====
/-
  The reference's result, read index by index at the ideal instance, is the specification's first arrangement.

  Entry (b, r, n) of the reference's contraction is the sum over the 4096 features i of x(b, r, i) times the weight
  w(n, i), where w = (q − z) · s entrywise: q the integer matrix read as reals, z and s the per-channel columns, each
  broadcast [16384] → [16384, 1] → [16384, 4096], so that entry (n, i) of the broadcast reads the column at n.
-/
import proofs.«116233_j2362232013179_2_alg».proof.Proof.Gen.ReferenceIdeal.Read
import proofs.«116233_j2362232013179_2_alg».proof.Proof.Spec
import Idealize.ShloMosaic.Lib.ValueIdx
import Idealize.ShloMosaic.PureOps.Ideal

noncomputable section

namespace Cert.ReferenceIdeal.RefValue

open Idealize.ShloMosaic Idealize.ShloMosaic.ValueIdx Cert.ReferenceIdeal Cert.ReferenceIdeal.Read

/-- The left operand of the contraction is read at (b, r, i). -/
theorem lidx_eq (j : S4x2048x16384.Idx) (i : Fin 4096) :
    lidx_main_v8 j i = ix3 (⟨(j 0).val, (j 0).isLt⟩ : Fin 4) (⟨(j 1).val, (j 1).isLt⟩ : Fin 2048) i :=
  funext fun a => Fin.ext (by match a with | ⟨0, _⟩ => rfl | ⟨1, _⟩ => rfl | ⟨2, _⟩ => rfl)

/-- The right operand of the contraction is read at (n, i). -/
theorem ridx_eq (j : S4x2048x16384.Idx) (i : Fin 4096) :
    ridx_main_v8 j i = ix2 (⟨(j 2).val, (j 2).isLt⟩ : Fin 16384) i :=
  funext fun a => Fin.ext (by match a with | ⟨0, _⟩ => rfl | ⟨1, _⟩ => rfl)

/-- The zero-point column broadcast twice reads entry (n, i) at n. -/
theorem zidx_eq (n : Fin 16384) (i : Fin 4096) : idx_main_v2 (idx_main_v3 (ix2 n i)) = ix1 n :=
  funext fun a => Fin.ext (by match a with | ⟨0, _⟩ => rfl)

/-- The scale column broadcast twice reads entry (n, i) at n. -/
theorem sidx_eq (n : Fin 16384) (i : Fin 4096) : idx_main_v5 (idx_main_v6 (ix2 n i)) = ix1 n :=
  funext fun a => Fin.ext (by match a with | ⟨0, _⟩ => rfl)

/-- The reference's result array is the specification's: entry (b, r, n) is ∑ᵢ x(b, r, i) · ((q(n, i) − z(n)) · s(n)). -/
theorem val_eq_result (x0 : (⟨Cert.ReferenceIdeal.S4x2048x4096, .f32⟩ : BufTy).Contents (Elt Ideal))
    (x1 : (⟨Cert.ReferenceIdeal.S16384x4096, .i32⟩ : BufTy).Contents (Elt Ideal))
    (x2 : (⟨Cert.ReferenceIdeal.S16384, .f32⟩ : BufTy).Contents (Elt Ideal))
    (x3 : (⟨Cert.ReferenceIdeal.S16384, .i32⟩ : BufTy).Contents (Elt Ideal)) :
    Cert.ReferenceIdeal.Read.val_main_v8 (F := Ideal) x0 x1 x2 x3 = Cert.QLinear.result x0 x1 x2 x3 := by
  funext j
  rw [val_main_v8_apply]
  unfold Cert.QLinear.result Cert.QLinear.dequantThenDot
  refine Finset.sum_congr rfl fun i _ => ?_
  rw [lidx_eq, ridx_eq, val_main_v7_apply, val_main_v4_apply, val_main_v0_apply, val_main_v3_apply, val_main_v2_apply,
    val_main_v1_apply, val_main_v6_apply, val_main_v5_apply, zidx_eq, sidx_eq]
  rfl

end Cert.ReferenceIdeal.RefValue

end
-- ==== Proof.Pieces.lean ====
/-
  What one call of the kernel body leaves behind, in each of its three control cases, as plain functions of the blocks it loaded.

  The body keeps two running totals between grid points along the contraction axis: `acc` (a 1024 × 1024 block of partial
  inner products) and `rowsum` (a 1024 × 1 column of partial row sums). Write `step x w a` for `a` plus the product of the
  left block `x` with the right block `w` (the generated term `k0_pay4`), and `stepSum x t` for `t` plus the row sums of `x`
  (`k0_pay5`). Then

    first point of a contraction (case A):   acc := step x w 0,       rowsum := stepSum x 0
    a middle point (case B):                 acc := step x w acc',    rowsum := stepSum x rowsum'
    the last point (case C):                 the same two updates, and the output block is the epilogue `k0_pay6` of the scale
                                             row, the zero-point row and the two totals JUST updated

  where the primes denote what the previous point left. Each statement holds for any interpretation of the floats: the
  body stores each total once, through the whole buffer, and a load through the whole buffer of what was just stored reads
  the stored value back.
-/
import proofs.«116233_j2362232013179_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

/-- The zero offsets of a whole-buffer access. -/
theorem hz : (![0, 0] : Fin 2 → Nat) = fun _ => 0 := funext fun a => by fin_cases a <;> rfl

/-- First point of a contraction: `acc` is zeroed, then one product is added. -/
theorem acc_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (hc0 : cond0_0 i) (hc1 : ¬cond0_1 i) (x0 x1 : Vec F S1024x1024 .bf16) (x2 x3 : Vec F S1x1024 .f32) :
    sout0_A_0 c i arg3 harg3 arg4 harg4 arg5 harg5 arg6 harg6 arg7 harg7 arg8 harg8 arg9 harg9 hc0 hc1 x0 x1 x2 x3 = k0_pay4 x0 x1 k0_pay1 := by
  unfold sout0_A_0
  rw [View.read_writes_eq_canon _ _ _ (scover0_A_0 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero hz]
  simp only [View.readCov_unit_zero (S := S1024x1024) _ hz, View.readCov_unit_zero (S := S1024x1) _ hz, View.readAt_eq_ld, harg3.read_unread, harg4.read_unread, harg5.read_unread, harg6.read_unread, harg8.read_unread, harg9.read_unread, View.ld_unit_zero (S := S1024x1024) hz, View.ld_unit_zero (S := S1024x1) hz, View.ld_unit_zero (S := S1x1024) hz]

/-- First point of a contraction: `rowsum` is zeroed, then one block's row sums are added. -/
theorem rowsum_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (hc0 : cond0_0 i) (hc1 : ¬cond0_1 i) (x0 x1 : Vec F S1024x1024 .bf16) (x2 x3 : Vec F S1x1024 .f32) :
    sout0_A_1 c i arg3 harg3 arg4 harg4 arg5 harg5 arg6 harg6 arg7 harg7 arg8 harg8 arg9 harg9 hc0 hc1 x0 x1 x2 x3 = k0_pay5 x0 k0_pay2 := by
  unfold sout0_A_1
  rw [View.read_writes_eq_canon _ _ _ (scover0_A_1 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero hz]
  simp only [View.readCov_unit_zero (S := S1024x1024) _ hz, View.readCov_unit_zero (S := S1024x1) _ hz, View.readAt_eq_ld, harg3.read_unread, harg4.read_unread, harg5.read_unread, harg6.read_unread, harg8.read_unread, harg9.read_unread, View.ld_unit_zero (S := S1024x1024) hz, View.ld_unit_zero (S := S1024x1) hz, View.ld_unit_zero (S := S1x1024) hz]

/-- A middle point: one more product is added to what the previous point left in `acc`. -/
theorem acc_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (hc0 : ¬cond0_0 i) (hc1 : ¬cond0_1 i) (x0 x1 : Vec F S1024x1024 .bf16) (x2 x3 : Vec F S1x1024 .f32) (xs0 : Vec F S1024x1024 .f32) (xs1 : Vec F S1024x1 .f32) :
    sout0_B_0 c i arg3 harg3 arg4 harg4 arg5 harg5 arg6 harg6 arg7 harg7 arg8 harg8 arg9 harg9 hc0 hc1 x0 x1 x2 x3 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 xs0 xs1)]
  unfold kernelRun0_B
  dsimp only
  rw [View.canon_unit_zero hz]
  simp only [View.readCov_unit_zero (S := S1024x1024) _ hz, View.readCov_unit_zero (S := S1024x1) _ hz, View.readAt_eq_ld, harg3.read_unread, harg4.read_unread, harg5.read_unread, harg6.read_unread, harg8.read_unread, harg9.read_unread, View.ld_unit_zero (S := S1024x1024) hz, View.ld_unit_zero (S := S1024x1) hz, View.ld_unit_zero (S := S1x1024) hz]

/-- A middle point: one more block's row sums are added to what the previous point left in `rowsum`. -/
theorem rowsum_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (hc0 : ¬cond0_0 i) (hc1 : ¬cond0_1 i) (x0 x1 : Vec F S1024x1024 .bf16) (x2 x3 : Vec F S1x1024 .f32) (xs0 : Vec F S1024x1024 .f32) (xs1 : Vec F S1024x1 .f32) :
    sout0_B_1 c i arg3 harg3 arg4 harg4 arg5 harg5 arg6 harg6 arg7 harg7 arg8 harg8 arg9 harg9 hc0 hc1 x0 x1 x2 x3 xs0 xs1 = k0_pay5 x0 xs1 := by
  unfold sout0_B_1
  rw [View.read_writes_eq_canon _ _ _ (scover0_B_1 c i arg3 harg3 arg4 harg4 arg5 harg5 arg6 harg6 arg7 harg7 arg8 harg8 arg9 harg9 hc0 hc1 x0 x1 x2 x3 xs0 xs1)]
  unfold kernelRun0_B
  dsimp only
  rw [View.canon_unit_zero hz]
  simp only [View.readCov_unit_zero (S := S1024x1024) _ hz, View.readCov_unit_zero (S := S1024x1) _ hz, View.readAt_eq_ld, harg3.read_unread, harg4.read_unread, harg5.read_unread, harg6.read_unread, harg8.read_unread, harg9.read_unread, View.ld_unit_zero (S := S1024x1024) hz, View.ld_unit_zero (S := S1024x1) hz, View.ld_unit_zero (S := S1x1024) hz]

/-- The last point: `acc` is updated as at a middle point. -/
theorem acc_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (hc0 : ¬cond0_0 i) (hc1 : cond0_1 i) (x0 x1 : Vec F S1024x1024 .bf16) (x2 x3 : Vec F S1x1024 .f32) (xs0 : Vec F S1024x1024 .f32) (xs1 : Vec F S1024x1 .f32) :
    sout0_C_0 c i arg3 harg3 arg4 harg4 arg5 harg5 arg6 harg6 arg7 harg7 arg8 harg8 arg9 harg9 hc0 hc1 x0 x1 x2 x3 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readCov_unit_zero (S := S1024x1024) _ hz, View.readCov_unit_zero (S := S1024x1) _ hz, View.readAt_eq_ld, harg3.read_unread, harg4.read_unread, harg5.read_unread, harg6.read_unread, harg8.read_unread, harg9.read_unread, View.ld_unit_zero (S := S1024x1024) hz, View.ld_unit_zero (S := S1024x1) hz, View.ld_unit_zero (S := S1x1024) hz]

/-- The last point: `rowsum` is updated as at a middle point. -/
theorem rowsum_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (hc0 : ¬cond0_0 i) (hc1 : cond0_1 i) (x0 x1 : Vec F S1024x1024 .bf16) (x2 x3 : Vec F S1x1024 .f32) (xs0 : Vec F S1024x1024 .f32) (xs1 : Vec F S1024x1 .f32) :
    sout0_C_1 c i arg3 harg3 arg4 harg4 arg5 harg5 arg6 harg6 arg7 harg7 arg8 harg8 arg9 harg9 hc0 hc1 x0 x1 x2 x3 xs0 xs1 = k0_pay5 x0 xs1 := by
  unfold sout0_C_1
  rw [View.read_writes_eq_canon _ _ _ (scover0_C_1 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readCov_unit_zero (S := S1024x1024) _ hz, View.readCov_unit_zero (S := S1024x1) _ hz, View.readAt_eq_ld, harg3.read_unread, harg4.read_unread, harg5.read_unread, harg6.read_unread, harg8.read_unread, harg9.read_unread, View.ld_unit_zero (S := S1024x1024) hz, View.ld_unit_zero (S := S1024x1) hz, View.ld_unit_zero (S := S1x1024) hz]

/-- The last point: the output block is the epilogue of the scale row `x2`, the zero-point row `x3` and the two totals as just updated. -/
theorem out_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (hc0 : ¬cond0_0 i) (hc1 : cond0_1 i) (x0 x1 : Vec F S1024x1024 .bf16) (x2 x3 : Vec F S1x1024 .f32) (xs0 : Vec F S1024x1024 .f32) (xs1 : Vec F S1024x1 .f32) :
    out0_C_4 c i arg3 harg3 arg4 harg4 arg5 harg5 arg6 harg6 arg7 harg7 arg8 harg8 arg9 harg9 hc0 hc1 x0 x1 x2 x3 xs0 xs1 = k0_pay6 x2 x3 (k0_pay4 x0 x1 xs0) (k0_pay5 x0 xs1) := by
  unfold out0_C_4
  rw [View.read_writes_eq_canon _ _ _ (cover0_C_4 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readCov_unit_zero (S := S1024x1024) _ hz, View.readCov_unit_zero (S := S1024x1) _ hz, View.readAt_eq_ld, harg3.read_unread, harg4.read_unread, harg5.read_unread, harg6.read_unread, harg8.read_unread, harg9.read_unread, View.ld_unit_zero (S := S1024x1024) hz, View.ld_unit_zero (S := S1024x1) hz, View.ld_unit_zero (S := S1x1024) hz]

end Cert.KernelIdeal.Pieces

end
-- ==== Proof.Steps.lean ====
/-
  What the two running totals and the output block hold after each grid point, as functions of the blocks the points loaded.

  The grid is 8 × 16 × 4, the last axis the contraction's four blocks of 1024 features, visited in row-major order: point
  `t` has contraction block `t mod 4`. At a point with `t mod 4 = 0` the totals restart from zero; at every other point they
  continue from what point `t − 1` left; at `t mod 4 = 3` the output block is written. So the output block written at such a
  point depends on the four points `t − 3, …, t` only, and unfolding the recursion four times gives it in closed form:
  four nested product-accumulations, four nested row-sum accumulations, and the epilogue on top.
-/
import proofs.«116233_j2362232013179_2_alg».proof.Proof.Pieces

set_option maxRecDepth 16384

noncomputable section

namespace Cert.KernelIdeal.Steps

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- After a point that starts a contraction: both totals are one update from zero. -/
theorem totals_first (c : Dev nD) (t : Fin cfg0.N) (h0 : t.val % 4 = 0) :
    (outsAt0 m c t.val t.isLt).2 = (k0_pay4 (iblk m c 0 t) (iblk m c 1 t) k0_pay1, k0_pay5 (iblk m c 0 t) k0_pay2) := by
  have h1 : ¬t.val % 4 = 3 := by omega
  rw [outsAt0_A m c t h0 h1]
  dsimp only
  rw [Pieces.acc_A, Pieces.rowsum_A]

/-- After a middle point: both totals are one update from what the point before left. -/
theorem totals_middle (c : Dev nD) (t : Fin cfg0.N) (h0 : ¬t.val % 4 = 0) (h1 : ¬t.val % 4 = 3) :
    (outsAt0 m c t.val t.isLt).2
      = (k0_pay4 (iblk m c 0 t) (iblk m c 1 t) (outsAt0 m c (t.val - 1) (Nat.lt_of_le_of_lt (Nat.sub_le _ _) t.isLt)).2.1,
         k0_pay5 (iblk m c 0 t) (outsAt0 m c (t.val - 1) (Nat.lt_of_le_of_lt (Nat.sub_le _ _) t.isLt)).2.2) := by
  rw [outsAt0_B m c t h0 h1]
  dsimp only
  rw [Pieces.acc_B, Pieces.rowsum_B]

/-- After the last point of a contraction: the output block is the epilogue of the totals as just updated. -/
theorem out_last (c : Dev nD) (t : Fin cfg0.N) (h1 : t.val % 4 = 3) :
    (outsAt0 m c t.val t.isLt).1
      = k0_pay6 (iblk m c 2 t) (iblk m c 3 t)
          (k0_pay4 (iblk m c 0 t) (iblk m c 1 t) (outsAt0 m c (t.val - 1) (Nat.lt_of_le_of_lt (Nat.sub_le _ _) t.isLt)).2.1)
          (k0_pay5 (iblk m c 0 t) (outsAt0 m c (t.val - 1) (Nat.lt_of_le_of_lt (Nat.sub_le _ _) t.isLt)).2.2) := by
  have h0 : ¬t.val % 4 = 0 := by omega
  rw [outsAt0_C m c t h0 h1]
  dsimp only
  rw [Pieces.out_C]

/-- The three points before a point `t` with `t mod 4 = 3`. -/
abbrev back (t : Fin cfg0.N) (k : ℕ) : Fin cfg0.N := ⟨t.val - k, Nat.lt_of_le_of_lt (Nat.sub_le _ _) t.isLt⟩

/-- THE CLOSED FORM. The output block written at the last point `t` of a contraction, from the blocks loaded at the four
    points `t − 3, t − 2, t − 1, t`. -/
theorem out_closed (c : Dev nD) (t : Fin cfg0.N) (h : t.val % 4 = 3) :
    (outsAt0 m c t.val t.isLt).1
      = k0_pay6 (iblk m c 2 t) (iblk m c 3 t)
          (k0_pay4 (iblk m c 0 t) (iblk m c 1 t)
            (k0_pay4 (iblk m c 0 (back t 1)) (iblk m c 1 (back t 1))
              (k0_pay4 (iblk m c 0 (back t 2)) (iblk m c 1 (back t 2))
                (k0_pay4 (iblk m c 0 (back t 3)) (iblk m c 1 (back t 3)) k0_pay1))))
          (k0_pay5 (iblk m c 0 t)
            (k0_pay5 (iblk m c 0 (back t 1))
              (k0_pay5 (iblk m c 0 (back t 2))
                (k0_pay5 (iblk m c 0 (back t 3)) k0_pay2)))) := by
  have e1 := totals_middle m c (back t 1) (by show ¬(t.val - 1) % 4 = 0; omega) (by show ¬(t.val - 1) % 4 = 3; omega)
  have e2 := totals_middle m c (back t 2) (by show ¬(t.val - 2) % 4 = 0; omega) (by show ¬(t.val - 2) % 4 = 3; omega)
  have e3 := totals_first m c (back t 3) (by show (t.val - 3) % 4 = 0; omega)
  have p2 : outsAt0 m c ((back t 1).val - 1) (Nat.lt_of_le_of_lt (Nat.sub_le _ _) (back t 1).isLt) = outsAt0 m c (back t 2).val (back t 2).isLt := by
    congr 1
  have p3 : outsAt0 m c ((back t 2).val - 1) (Nat.lt_of_le_of_lt (Nat.sub_le _ _) (back t 2).isLt) = outsAt0 m c (back t 3).val (back t 3).isLt := by
    congr 1
  rw [p2] at e1
  rw [p3] at e2
  rw [out_last m c t h]
  show k0_pay6 _ _ (k0_pay4 _ _ (outsAt0 m c (back t 1).val (back t 1).isLt).2.1) (k0_pay5 _ (outsAt0 m c (back t 1).val (back t 1).isLt).2.2) = _
  rw [e1]
  dsimp only
  rw [e2]
  dsimp only
  rw [e3]

end Cert.KernelIdeal.Steps

end
-- ==== Proof.LibColumnLayout.lean ====
/-
  Column layouts read at an index, and a row sum at the ideal instance.

  A sum over the last axis of an `[a, b]` array taken with the axis kept leaves a column `[a, 1]`. Three re-layings of such a
  column occur around it: the cast of a vector `[a]` to the column `[a, 1]`, the cast of a column `[a, 1]` to the row `[1, a]`
  (the same `a` numbers in the same row-major order), and the broadcast of a column `[a, 1]` along a new second extent to
  `[a, b]`. Each, read at an index, is the operand at the evident index: entry `(i, 0)` of the column is entry `i` of the vector,
  entry `(0, i)` of the row is entry `(i, 0)` of the column, and entry `(p, c)` of the broadcast is entry `(p, 0)` of the column.
  The host's `broadcast_in_dim` of a vector to a column along axis 0 reads the same way.

  On the extended reals a sum along the second axis of an `[a, b]` array, at row `p`, is the sum over `d` of the entries
  `(p, d)` — for a vector reduction and for the host's reduction from an initial value alike.
-/
import Idealize.ShloMosaic.Lib.ValueLayout
import Idealize.ShloMosaic.PureOps.Ideal.Laws

noncomputable section

namespace Cert.LibColumnLayout

open Idealize.ShloMosaic Idealize.ShloMosaic.ValueIdx

variable {α : Type}

/-! ## A vector as a column, a column as a row, a column broadcast along rows -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to the row `[1, a]` reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an `[a]` array to the column `[a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A sum along the second axis, on the extended reals -/

/-- A vector reduction by addition along the second axis of an `[a, b]` array, at row `p`: the sum of that row. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) : multiReduction .add [1] ⟨1, ![a]⟩ src acc h hφ hacc (ix1 p) = ∑ d : Fin b, src (ix2 p d) := by
  refine (Ideal.multiReduction_add_single src acc h hφ hacc (ix1 p)).trans ?_
  refine Finset.sum_congr rfl fun d _ => congrArg src ?_
  funext ax; apply Fin.ext
  match ax with
  | ⟨0, _⟩ => rfl
  | ⟨1, _⟩ => rfl

/-- The host's reduction by addition along the second axis from an initial value, at row `p`: the initial value plus the
    sum of that row. -/
theorem hostReduceAdd_rows_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ d : Fin b, x (ix2 p d) := by
  refine (Ideal.hostReduceAdd_single h' h x init (ix1 p)).trans ?_
  refine congrArg (init + ·) (Finset.sum_congr rfl fun d _ => congrArg x ?_)
  funext ax; apply Fin.ext
  match ax with
  | ⟨0, _⟩ => rfl
  | ⟨1, _⟩ => rfl

end Cert.LibColumnLayout

end
-- ==== Proof.Payloads.lean ====
/-
  The kernel body's stored values, each read at an index, at the ideal instance.

  The body stores five values: a zero block and a zero column (first step of the contraction axis), the accumulator block plus
  the product of the two loaded blocks contracted along their second axes, the accumulator column plus the row sums of the left
  block, and (last step) the rescaled output block. Read at an index on the extended reals each is plain arithmetic on the values
  the body loaded: a cast to the same shape is the identity, a change of float format is the identity, a product into the zero
  accumulator is the sum over the contracted coordinate, a sum along the second axis kept as a column is the row's sum, and a
  column or a row broadcast to the block reads the column at the row or the row at the column.
-/
import proofs.«116233_j2362232013179_2_alg».proof.Proof.Gen.KernelIdeal.Skeleton
import proofs.«116233_j2362232013179_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

variable [Cert.KernelIdeal.Facts]

/-! ## The zero block and the zero column -/

/-- The zero block: a splat of the zero word, cast to its own shape, is `0` everywhere. -/
theorem pay1_apply (p q : Fin 1024) : k0_pay1 (F := Ideal) (ix2 p q) = 0 := by
  unfold k0_pay1
  rw [shapeCast_self]
  exact Ideal.ofBits_zero_f32

/-- The zero column likewise. -/
theorem pay2_apply (p : Fin 1024) (u : Fin 1) : k0_pay2 (F := Ideal) (ix2 p u) = 0 := by
  unfold k0_pay2
  rw [shapeCast_self]
  exact Ideal.ofBits_zero_f32

/-! ## The rescaled output block -/

/-- The output block: the scale row at the column times (the accumulator minus the row-sum column at the row times the
    zero-point row at the column). The column is broadcast along the second axis, the two rows along the first. -/
theorem pay6_apply (v24 v26 : Vec Ideal S1x1024 .f32) (v28 : Vec Ideal S1024x1024 .f32) (v29 : Vec Ideal S1024x1 .f32) (p q : Fin 1024) :
    k0_pay6 v24 v26 v28 v29 (ix2 p q) = v24 (ix2 (0 : Fin 1) q) * (v28 (ix2 p q) - v29 (ix2 p (0 : Fin 1)) * v26 (ix2 (0 : Fin 1) q)) := by
  unfold k0_pay6
  rw [shapeCast_self, shapeCast_self]
  rw [mulf_apply, subf_apply, mulf_apply]
  rw [broadcastTo_1b_ab_apply, broadcastTo_1b_ab_apply, Cert.LibColumnLayout.broadcastTo_a1_ab_apply]

/-! ## The accumulator column plus the row sums -/

/-- The left block as the body uses it: the loaded block cast to its own shape. -/
theorem pay3_eq (v3 : Vec Ideal S1024x1024 .bf16) : k0_pay3 v3 = v3 := by
  unfold k0_pay3
  exact shapeCast_self _ _

/-- The column of row sums: the accumulator column at the row plus the sum of the left block's row (widened to the
    accumulator's format, which changes nothing on the extended reals), the vector of sums laid as a column. -/
theorem pay5_apply (v3 : Vec Ideal S1024x1024 .bf16) (v13 : Vec Ideal S1024x1 .f32) (p : Fin 1024) (u : Fin 1) :
    k0_pay5 v3 v13 (ix2 p u) = v13 (ix2 p u) + ∑ kk : Fin 1024, v3 (ix2 p kk) := by
  unfold k0_pay5
  rw [shapeCast_self, addf_apply, Cert.LibColumnLayout.shapeCast_a_a1_apply, pay3_eq]
  refine congrArg (v13 (ix2 p u) + ·) ?_
  refine (Cert.LibColumnLayout.multiReduction_add_rows_apply _ _ _ _ _ p).trans ?_
  rfl

/-! ## The accumulator block plus the product of the two loaded blocks -/

/-- The left operand's index at output index `i` and contraction position `c`: its first coordinate is `i`'s first … -/
theorem lhs_0 (i : S1024x1024.Idx) (c : dot_S1024x1024_S1024x1024_S1024x1024_1_1_0_0_n_n.contr.Idx) :
    (dot_S1024x1024_S1024x1024_S1024x1024_1_1_0_0_n_n.lhsIdx i c 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- … and its second, the contracted one, is the contraction position's one coordinate. -/
theorem lhs_1 (i : S1024x1024.Idx) (c : dot_S1024x1024_S1024x1024_S1024x1024_1_1_0_0_n_n.contr.Idx) :
    (dot_S1024x1024_S1024x1024_S1024x1024_1_1_0_0_n_n.lhsIdx i c 1).val = (c ⟨0, by decide⟩).val :=
  dot_S1024x1024_S1024x1024_S1024x1024_1_1_0_0_n_n.lhsIdx_val_of_single rfl i c
/-- The right operand's index: its first coordinate is `i`'s second (the right block is contracted along its second axis,
    so its rows are the output's columns) … -/
theorem rhs_0 (i : S1024x1024.Idx) (c : dot_S1024x1024_S1024x1024_S1024x1024_1_1_0_0_n_n.contr.Idx) :
    (dot_S1024x1024_S1024x1024_S1024x1024_1_1_0_0_n_n.rhsIdx i c 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- … and its second is the contraction position's one coordinate. -/
theorem rhs_1 (i : S1024x1024.Idx) (c : dot_S1024x1024_S1024x1024_S1024x1024_1_1_0_0_n_n.contr.Idx) :
    (dot_S1024x1024_S1024x1024_S1024x1024_1_1_0_0_n_n.rhsIdx i c 1).val = (c ⟨0, by decide⟩).val :=
  dot_S1024x1024_S1024x1024_S1024x1024_1_1_0_0_n_n.rhsIdx_val_of_single rfl i c

/-- The product of a left and a right block into the zero accumulator, both contracted along their second axes, at
    `(p, q)`: the sum over `kk` of the left block at `(p, kk)` times the right block at `(q, kk)`. -/
theorem matmul_zero_apply (l r : FVec Ideal S1024x1024 .bf16) (p q : Fin 1024) :
    matmul dot_S1024x1024_S1024x1024_S1024x1024_1_1_0_0_n_n none l r (constant S1024x1024 .f32 0x00000000#32) (ix2 p q)
      = ∑ kk : Fin 1024, l (ix2 p kk) * r (ix2 q kk) := by
  simp only [matmul]
  rw [Ideal.matmul_constant_zero_apply, ← Equiv.sum_comp (contrEquiv1 dot_S1024x1024_S1024x1024_S1024x1024_1_1_0_0_n_n 1024 rfl rfl).symm]
  refine Finset.sum_congr rfl fun kk _ => ?_
  have hk := contrEquiv1_symm_val dot_S1024x1024_S1024x1024_S1024x1024_1_1_0_0_n_n 1024 rfl rfl kk
  have el : dot_S1024x1024_S1024x1024_S1024x1024_1_1_0_0_n_n.lhsIdx (ix2 p q) ((contrEquiv1 dot_S1024x1024_S1024x1024_S1024x1024_1_1_0_0_n_n 1024 rfl rfl).symm kk) = ix2 p kk := funext fun a => Fin.ext (by
    match a with
    | ⟨0, _⟩ => exact lhs_0 _ _
    | ⟨1, _⟩ => exact (lhs_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm kk) = ix2 q kk := funext fun a => Fin.ext (by
    match a with
    | ⟨0, _⟩ => exact rhs_0 _ _
    | ⟨1, _⟩ => exact (rhs_1 _ _).trans hk)
  rw [el, er]

/-- The accumulator block: the accumulator at `(p, q)` plus that sum over the two loaded blocks. -/
theorem pay4_apply (v3 v5 : Vec Ideal S1024x1024 .bf16) (v7 : Vec Ideal S1024x1024 .f32) (p q : Fin 1024) :
    k0_pay4 v3 v5 v7 (ix2 p q) = v7 (ix2 p q) + ∑ kk : Fin 1024, v3 (ix2 p kk) * v5 (ix2 q kk) := by
  unfold k0_pay4
  rw [shapeCast_self, shapeCast_self, addf_apply, pay3_eq]
  exact congrArg (v7 (ix2 p q) + ·) (matmul_zero_apply v3 v5 p q)

end Cert.KernelIdeal.Pay

end
-- ==== Proof.Blocks.lean ====
/-
  Where each window's block sits in its array.

  The grid is 8 × 16 × 4, visited in row-major order, so point `t` has block row `t / 64` (of the 8192 rows, in blocks of
  1024), block column `(t / 4) mod 16` (of the 16384 output channels) and contraction block `t mod 4` (of the 4096
  features). The left operand's window follows (block row, contraction block), the integer matrix's (block column,
  contraction block), the scale and zero-point rows' (0, block column), and the output's (block row, block column). An entry
  of a block is the entry of the array at block index × 1024 + the coordinate inside the block, on each axis.
-/
import proofs.«116233_j2362232013179_2_alg».proof.Proof.Gen.KernelIdeal.Frame
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem

/-! ## The index maps, decided once over the 512 grid points -/

theorem index_lhs : ∀ t : Fin cfg0.N, win0_0.index t (0 : Fin 2) = t.val / 64 ∧ win0_0.index t (1 : Fin 2) = t.val % 4 :=
  (by decide +kernel : ∀ t : Fin grid0.N, win0_0.index t (0 : Fin 2) = t.val / 64 ∧ win0_0.index t (1 : Fin 2) = t.val % 4)
theorem index_rhs : ∀ t : Fin cfg0.N, win0_1.index t (0 : Fin 2) = t.val / 4 % 16 ∧ win0_1.index t (1 : Fin 2) = t.val % 4 :=
  (by decide +kernel : ∀ t : Fin grid0.N, win0_1.index t (0 : Fin 2) = t.val / 4 % 16 ∧ win0_1.index t (1 : Fin 2) = t.val % 4)
theorem index_scale : ∀ t : Fin cfg0.N, win0_2.index t (0 : Fin 2) = 0 ∧ win0_2.index t (1 : Fin 2) = t.val / 4 % 16 :=
  (by decide +kernel : ∀ t : Fin grid0.N, win0_2.index t (0 : Fin 2) = 0 ∧ win0_2.index t (1 : Fin 2) = t.val / 4 % 16)
theorem index_zp : ∀ t : Fin cfg0.N, win0_3.index t (0 : Fin 2) = 0 ∧ win0_3.index t (1 : Fin 2) = t.val / 4 % 16 :=
  (by decide +kernel : ∀ t : Fin grid0.N, win0_3.index t (0 : Fin 2) = 0 ∧ win0_3.index t (1 : Fin 2) = t.val / 4 % 16)
theorem index_out : ∀ t : Fin cfg0.N, win0_4.index t (0 : Fin 2) = t.val / 64 ∧ win0_4.index t (1 : Fin 2) = t.val / 4 % 16 :=
  (by decide +kernel : ∀ t : Fin grid0.N, win0_4.index t (0 : Fin 2) = t.val / 64 ∧ win0_4.index t (1 : Fin 2) = t.val / 4 % 16)

/-! ## A block's entry in its array -/

variable {F : FTy → Type} [FloatOps F]
variable (m : (ℓ : Loc nD τ sig) → Buf (Elt F) ℓ)

/-- An entry of window 0's block at point `t` is the entry of its array at block index × block size + the coordinate inside the block. -/
theorem iblk0_apply (c : Dev nD) (t : Fin cfg0.N) (y : S1024x1024.Idx) (i : S8192x4096.Idx)
    (h0 : (i 0).val = t.val / 64 * 1024 + (y 0).val) (h1 : (i 1).val = t.val % 4 * 1024 + (y 1).val) :
    (iblk m c 0 t : Vec F S1024x1024 .bf16) y = V m c main_v1 i := by
  unfold iblk
  rw [View.read_apply]
  show V m c main_v1 (((cfg0.win 0).blk t).view.emb y) = V m c main_v1 i
  refine congrArg (V m c main_v1) (funext fun a => Fin.ext ?_)
  match a with
  | ⟨0, _⟩ => show win0_0.index t 0 * 1024 + 1 * (y 0).val = (i 0).val; rw [(index_lhs t).1, h0]; omega
  | ⟨1, _⟩ => show win0_0.index t 1 * 1024 + 1 * (y 1).val = (i 1).val; rw [(index_lhs t).2, h1]; omega

/-- An entry of window 1's block at point `t` is the entry of its array at block index × block size + the coordinate inside the block. -/
theorem iblk1_apply (c : Dev nD) (t : Fin cfg0.N) (y : S1024x1024.Idx) (i : S16384x4096.Idx)
    (h0 : (i 0).val = t.val / 4 % 16 * 1024 + (y 0).val) (h1 : (i 1).val = t.val % 4 * 1024 + (y 1).val) :
    (iblk m c 1 t : Vec F S1024x1024 .bf16) y = V m c main_v2 i := by
  unfold iblk
  rw [View.read_apply]
  show V m c main_v2 (((cfg0.win 1).blk t).view.emb y) = V m c main_v2 i
  refine congrArg (V m c main_v2) (funext fun a => Fin.ext ?_)
  match a with
  | ⟨0, _⟩ => show win0_1.index t 0 * 1024 + 1 * (y 0).val = (i 0).val; rw [(index_rhs t).1, h0]; omega
  | ⟨1, _⟩ => show win0_1.index t 1 * 1024 + 1 * (y 1).val = (i 1).val; rw [(index_rhs t).2, h1]; omega

/-- An entry of window 2's block at point `t` is the entry of its array at block index × block size + the coordinate inside the block. -/
theorem iblk2_apply (c : Dev nD) (t : Fin cfg0.N) (y : S1x1024.Idx) (i : S1x16384.Idx)
    (h0 : (i 0).val = 0 * 1 + (y 0).val) (h1 : (i 1).val = t.val / 4 % 16 * 1024 + (y 1).val) :
    (iblk m c 2 t : Vec F S1x1024 .f32) y = V m c main_v3 i := by
  unfold iblk
  rw [View.read_apply]
  show V m c main_v3 (((cfg0.win 2).blk t).view.emb y) = V m c main_v3 i
  refine congrArg (V m c main_v3) (funext fun a => Fin.ext ?_)
  match a with
  | ⟨0, _⟩ => show win0_2.index t 0 * 1 + 1 * (y 0).val = (i 0).val; rw [(index_scale t).1, h0]; omega
  | ⟨1, _⟩ => show win0_2.index t 1 * 1024 + 1 * (y 1).val = (i 1).val; rw [(index_scale t).2, h1]; omega

/-- An entry of window 3's block at point `t` is the entry of its array at block index × block size + the coordinate inside the block. -/
theorem iblk3_apply (c : Dev nD) (t : Fin cfg0.N) (y : S1x1024.Idx) (i : S1x16384.Idx)
    (h0 : (i 0).val = 0 * 1 + (y 0).val) (h1 : (i 1).val = t.val / 4 % 16 * 1024 + (y 1).val) :
    (iblk m c 3 t : Vec F S1x1024 .f32) y = V m c main_v5 i := by
  unfold iblk
  rw [View.read_apply]
  show V m c main_v5 (((cfg0.win 3).blk t).view.emb y) = V m c main_v5 i
  refine congrArg (V m c main_v5) (funext fun a => Fin.ext ?_)
  match a with
  | ⟨0, _⟩ => show win0_3.index t 0 * 1 + 1 * (y 0).val = (i 0).val; rw [(index_zp t).1, h0]; omega
  | ⟨1, _⟩ => show win0_3.index t 1 * 1024 + 1 * (y 1).val = (i 1).val; rw [(index_zp t).2, h1]; omega

end Cert.KernelIdeal.Blocks

end
-- ==== Proof.Arrays.lean ====
/-
  The four arrays the kernel's windows read, as the host operations before the launch leave them.

  `x` (4 × 2048 × 4096) is flattened to 8192 rows — row `b · 2048 + r` is row `(b, r)` — and rounded to a narrower float
  format, which on the extended reals changes nothing. The integer matrix is converted entry by entry to the integer it
  denotes. The scales, and the zero points after the same conversion, are laid out as one row of 16384 entries.
-/
import proofs.«116233_j2362232013179_2_alg».proof.Proof.Gen.KernelIdeal.Frame
import proofs.«116233_j2362232013179_2_alg».proof.Proof.Spec
import Idealize.ShloMosaic.Lib.Pipeline.Value
import Idealize.ShloMosaic.Lib.ValueLayout
import Idealize.ShloMosaic.Lib.StableHlo.Run
import Idealize.ShloMosaic.Lib.Tactic

set_option maxRecDepth 16384

noncomputable section

namespace Cert.KernelIdeal.Arrays

open Cert.KernelIdeal Cert.KernelIdeal.Gen Idealize.ShloMosaic Idealize.ShloMosaic.TcCoe Idealize.SL.Sem Idealize.ShloMosaic.StableHlo
open Idealize.ShloMosaic.ValueIdx

/-! ## As terms of the argument arrays, for any interpretation of the floats -/

section
variable {F : FTy → Type} [FloatOps F]
variable (m : (ℓ : Loc nD τ sig) → Buf (Elt F) ℓ)

theorem lhs_eq (c : Dev nD) : (V m c main_v1 : S8192x4096.Idx → F .bf16)
    = truncf .bf16 (shapeCast S8192x4096 (m ((c : Thread nD τ).loc main_arg0)) shapeCasts_S4x2048x4096_S8192x4096) bitsLt_bf16_f32 := by
  show StableHlo.after hostOps0 (fun b => m (c, b)) (Proc.devRef .tc main_v1) = _
  after_results; rfl

theorem rhs_eq (c : Dev nD) : (V m c main_v2 : S16384x4096.Idx → F .bf16) = sitofp .bf16 (m ((c : Thread nD τ).loc main_arg1)) := by
  show StableHlo.after hostOps0 (fun b => m (c, b)) (Proc.devRef .tc main_v2) = _
  after_results

theorem scale_eq (c : Dev nD) : (V m c main_v3 : S1x16384.Idx → F .f32)
    = shapeCast S1x16384 (m ((c : Thread nD τ).loc main_arg2)) shapeCasts_S16384_S1x16384 := by
  show StableHlo.after hostOps0 (fun b => m (c, b)) (Proc.devRef .tc main_v3) = _
  after_results; rfl

theorem zp_eq (c : Dev nD) : (V m c main_v5 : S1x16384.Idx → F .f32)
    = shapeCast S1x16384 (sitofp .f32 (m ((c : Thread nD τ).loc main_arg3))) shapeCasts_S16384_S1x16384 := by
  show StableHlo.after hostOps0 (fun b => m (c, b)) (Proc.devRef .tc main_v5) = _
  after_results; rfl

end

/-! ## Read at an index, on the extended reals -/

variable (m : (ℓ : Loc nD τ sig) → Buf (Elt Ideal) ℓ)

/-- Row `b · 2048 + r` of the flattened `x` is row `(b, r)` of `x`. -/
theorem lhs_apply (c : Dev nD) (i : S8192x4096.Idx) (b : Fin 4) (r : Fin 2048) (k : Fin 4096)
    (h0 : (i 0).val = b.val * 2048 + r.val) (h1 : (i 1).val = k.val) :
    V m c main_v1 i = m ((c : Thread nD τ).loc main_arg0) (ix3 b r k) := by
  rw [lhs_eq]
  show shapeCast S8192x4096 (m ((c : Thread nD τ).loc main_arg0)) shapeCasts_S4x2048x4096_S8192x4096 i = _
  refine shapeCast_apply _ _ i (ix3 b r k) ?_
  rw [Shape.rowMajor_val_three, Shape.rowMajor_val_two, h0, h1]
  rfl

/-- An entry of the converted integer matrix is the integer the word denotes. -/
theorem rhs_apply (c : Dev nD) (i : S16384x4096.Idx) :
    V m c main_v2 i = Cert.QLinear.ofInt (m ((c : Thread nD τ).loc main_arg1) i) := by
  rw [rhs_eq]; rfl

/-- Entry `(0, n)` of the scale row is scale `n`. -/
theorem scale_apply (c : Dev nD) (u : Fin 1) (n : Fin 16384) :
    V m c main_v3 (ix2 u n) = m ((c : Thread nD τ).loc main_arg2) (ix1 n) := by
  rw [scale_eq]
  exact shapeCast_a_1a_apply _ _ u n

/-- Entry `(0, n)` of the zero-point row is the integer zero point `n` denotes. -/
theorem zp_apply (c : Dev nD) (u : Fin 1) (n : Fin 16384) :
    V m c main_v5 (ix2 u n) = Cert.QLinear.ofInt (m ((c : Thread nD τ).loc main_arg3) (ix1 n)) := by
  rw [zp_eq]
  exact (shapeCast_a_1a_apply _ _ u n).trans rfl

end Cert.KernelIdeal.Arrays

end
-- ==== Proof.Entries.lean ====
/-
  One entry of the output block written at the last point of a contraction, as the specification's second arrangement.

  Four consecutive grid points `t − 3, …, t` share a block row and a block column and run through the four contraction
  blocks. After them the product total at `(p, q)` is the sum over the four blocks of the 1024-term inner products of row
  `p` of the left block with row `q` of the integer block; the row-sum total at `p` is the sum over the four blocks of row
  `p`'s 1024 entries; and the entry written is scale · (product total − row-sum total · zero point). Reading each block's
  entries in its array (the flattened `x`, the converted integers, the scale row, the zero-point row) turns this into
  `dotThenCorrect` at row `b · 2048 + r` = block row · 1024 + p and channel `n` = block column · 1024 + q.
-/
import proofs.«116233_j2362232013179_2_alg».proof.Proof.Steps
import proofs.«116233_j2362232013179_2_alg».proof.Proof.Payloads
import proofs.«116233_j2362232013179_2_alg».proof.Proof.Blocks
import proofs.«116233_j2362232013179_2_alg».proof.Proof.Arrays
import proofs.«116233_j2362232013179_2_alg».proof.Proof.Spec

set_option maxRecDepth 16384

noncomputable section

namespace Cert.KernelIdeal.Entries

open Cert.KernelIdeal Cert.KernelIdeal.Gen Idealize.ShloMosaic Idealize.ShloMosaic.TcCoe Idealize.SL.Sem
open Idealize.ShloMosaic.ValueIdx Cert.QLinear Cert.KernelIdeal.Steps

/-- The epilogue on four accumulations from zero, read at `(p, q)`. -/
theorem epilogue_apply (X0 X1 X2 X3 W0 W1 W2 W3 : Vec Ideal S1024x1024 .bf16) (sc zp : Vec Ideal S1x1024 .f32) (p q : Fin 1024) :
    k0_pay6 sc zp (k0_pay4 X3 W3 (k0_pay4 X2 W2 (k0_pay4 X1 W1 (k0_pay4 X0 W0 (k0_pay1 (F := Ideal))))))
        (k0_pay5 X3 (k0_pay5 X2 (k0_pay5 X1 (k0_pay5 X0 (k0_pay2 (F := Ideal)))))) (ix2 p q)
      = sc (ix2 (0 : Fin 1) q)
          * (((((∑ kk : Fin 1024, X0 (ix2 p kk) * W0 (ix2 q kk)) + ∑ kk : Fin 1024, X1 (ix2 p kk) * W1 (ix2 q kk))
                + ∑ kk : Fin 1024, X2 (ix2 p kk) * W2 (ix2 q kk)) + ∑ kk : Fin 1024, X3 (ix2 p kk) * W3 (ix2 q kk))
              - ((((∑ kk : Fin 1024, X0 (ix2 p kk)) + ∑ kk : Fin 1024, X1 (ix2 p kk)) + ∑ kk : Fin 1024, X2 (ix2 p kk))
                  + ∑ kk : Fin 1024, X3 (ix2 p kk)) * zp (ix2 (0 : Fin 1) q)) := by
  rw [Pay.pay6_apply, Pay.pay4_apply, Pay.pay4_apply, Pay.pay4_apply, Pay.pay4_apply, Pay.pay1_apply,
    Pay.pay5_apply, Pay.pay5_apply, Pay.pay5_apply, Pay.pay5_apply, Pay.pay2_apply, zero_add, zero_add]

variable (m : (ℓ : Loc nD τ sig) → Buf (Elt Ideal) ℓ)

/-- An entry of the left block at a point in contraction block `kb`: row `(b, r)` of `x`, feature `kb · 1024 + kk`. -/
theorem lhs_entry (c : Dev nD) (t' : Fin cfg0.N) (p kk : Fin 1024) (kb : Fin 4) (b : Fin 4) (r : Fin 2048)
    (hk : t'.val % 4 = kb.val) (hbr : t'.val / 64 * 1024 + p.val = b.val * 2048 + r.val) :
    (iblk m c 0 t' : Vec Ideal S1024x1024 .bf16) (ix2 p kk) = m ((c : Thread nD τ).loc main_arg0) (ix3 b r (blockCol kb kk)) :=
  (Blocks.iblk0_apply m c t' (ix2 p kk) (ix2 (⟨b.val * 2048 + r.val, by omega⟩ : Fin 8192) (blockCol kb kk))
      (by show b.val * 2048 + r.val = t'.val / 64 * 1024 + p.val; omega)
      (by show kb.val * 1024 + kk.val = t'.val % 4 * 1024 + kk.val; rw [hk])).trans
    (Arrays.lhs_apply m c _ b r (blockCol kb kk) rfl rfl)

/-- An entry of the integer block at a point in contraction block `kb`: channel `n`, feature `kb · 1024 + kk`, as an integer. -/
theorem rhs_entry (c : Dev nD) (t' : Fin cfg0.N) (q kk : Fin 1024) (kb : Fin 4) (n : Fin 16384)
    (hk : t'.val % 4 = kb.val) (hn : n.val = t'.val / 4 % 16 * 1024 + q.val) :
    (iblk m c 1 t' : Vec Ideal S1024x1024 .bf16) (ix2 q kk) = ofInt (m ((c : Thread nD τ).loc main_arg1) (ix2 n (blockCol kb kk))) :=
  (Blocks.iblk1_apply m c t' (ix2 q kk) (ix2 n (blockCol kb kk)) hn
      (by show kb.val * 1024 + kk.val = t'.val % 4 * 1024 + kk.val; rw [hk])).trans
    (Arrays.rhs_apply m c _)

/-- The scale block's entry for channel `n`. -/
theorem scale_entry (c : Dev nD) (t' : Fin cfg0.N) (q : Fin 1024) (n : Fin 16384) (hn : n.val = t'.val / 4 % 16 * 1024 + q.val) :
    (iblk m c 2 t' : Vec Ideal S1x1024 .f32) (ix2 (0 : Fin 1) q) = m ((c : Thread nD τ).loc main_arg2) (ix1 n) :=
  (Blocks.iblk2_apply m c t' (ix2 (0 : Fin 1) q) (ix2 (0 : Fin 1) n) (by show (0 : ℕ) = 0 * 1 + 0; omega) hn).trans
    (Arrays.scale_apply m c 0 n)

/-- The zero-point block's entry for channel `n`, as an integer. -/
theorem zp_entry (c : Dev nD) (t' : Fin cfg0.N) (q : Fin 1024) (n : Fin 16384) (hn : n.val = t'.val / 4 % 16 * 1024 + q.val) :
    (iblk m c 3 t' : Vec Ideal S1x1024 .f32) (ix2 (0 : Fin 1) q) = ofInt (m ((c : Thread nD τ).loc main_arg3) (ix1 n)) :=
  (Blocks.iblk3_apply m c t' (ix2 (0 : Fin 1) q) (ix2 (0 : Fin 1) n) (by show (0 : ℕ) = 0 * 1 + 0; omega) hn).trans
    (Arrays.zp_apply m c 0 n)

/-- THE ENTRY. At the last point `t` of a contraction, entry `(p, q)` of the block written is `dotThenCorrect` at the row and
    channel the block's position gives. -/
theorem block_entry (c : Dev nD) (t : Fin cfg0.N) (h3 : t.val % 4 = 3) (p q : Fin 1024) (b : Fin 4) (r : Fin 2048) (n : Fin 16384)
    (hbr : t.val / 64 * 1024 + p.val = b.val * 2048 + r.val) (hn : n.val = t.val / 4 % 16 * 1024 + q.val) :
    ((outsAt0 m c t.val t.isLt).1 : Vec Ideal S1024x1024 .f32) (ix2 p q)
      = dotThenCorrect (m ((c : Thread nD τ).loc main_arg0)) (m ((c : Thread nD τ).loc main_arg1))
          (m ((c : Thread nD τ).loc main_arg2)) (m ((c : Thread nD τ).loc main_arg3)) b r n := by
  have hN : t.val < 512 := lt_of_lt_of_eq t.isLt (show cfg0.N = 512 from N_0)
  rw [Steps.out_closed m c t h3]
  refine (epilogue_apply (iblk m c 0 (back t 3)) (iblk m c 0 (back t 2)) (iblk m c 0 (back t 1)) (iblk m c 0 t)
    (iblk m c 1 (back t 3)) (iblk m c 1 (back t 2)) (iblk m c 1 (back t 1)) (iblk m c 1 t) (iblk m c 2 t) (iblk m c 3 t) p q).trans ?_
  have k3 : (back t 3).val % 4 = (0 : Fin 4).val := by show (t.val - 3) % 4 = 0; omega
  have k2 : (back t 2).val % 4 = (1 : Fin 4).val := by show (t.val - 2) % 4 = 1; omega
  have k1 : (back t 1).val % 4 = (2 : Fin 4).val := by show (t.val - 1) % 4 = 2; omega
  have k0 : t.val % 4 = (3 : Fin 4).val := h3
  have r3 : (back t 3).val / 64 * 1024 + p.val = b.val * 2048 + r.val := by show (t.val - 3) / 64 * 1024 + p.val = _; omega
  have r2 : (back t 2).val / 64 * 1024 + p.val = b.val * 2048 + r.val := by show (t.val - 2) / 64 * 1024 + p.val = _; omega
  have r1 : (back t 1).val / 64 * 1024 + p.val = b.val * 2048 + r.val := by show (t.val - 1) / 64 * 1024 + p.val = _; omega
  have n3 : n.val = (back t 3).val / 4 % 16 * 1024 + q.val := by show _ = (t.val - 3) / 4 % 16 * 1024 + q.val; omega
  have n2 : n.val = (back t 2).val / 4 % 16 * 1024 + q.val := by show _ = (t.val - 2) / 4 % 16 * 1024 + q.val; omega
  have n1 : n.val = (back t 1).val / 4 % 16 * 1024 + q.val := by show _ = (t.val - 1) / 4 % 16 * 1024 + q.val; omega
  simp only [fun kk => lhs_entry m c (back t 3) p kk 0 b r k3 r3, fun kk => lhs_entry m c (back t 2) p kk 1 b r k2 r2,
    fun kk => lhs_entry m c (back t 1) p kk 2 b r k1 r1, fun kk => lhs_entry m c t p kk 3 b r k0 hbr,
    fun kk => rhs_entry m c (back t 3) q kk 0 n k3 n3, fun kk => rhs_entry m c (back t 2) q kk 1 n k2 n2,
    fun kk => rhs_entry m c (back t 1) q kk 2 n k1 n1, fun kk => rhs_entry m c t q kk 3 n k0 hn,
    scale_entry m c t q n hn, zp_entry m c t q n hn]
  unfold dotThenCorrect
  rw [Fin.sum_univ_four, Fin.sum_univ_four]

end Cert.KernelIdeal.Entries

end
-- ==== Proof.KernelValue.lean ====
/-
  The kernel's result array after the run.

  The launch writes a 8192 × 16384 array block by block: the block at block row `R` and block column `C` is written once, at
  the last of the four grid points that share `(R, C)`, and holds `dotThenCorrect` at row `R · 1024 + p` and channel
  `C · 1024 + q`. Every index `(ρ, ν)` lies in exactly the block `(ρ / 1024, ν / 1024)`, so the whole array is that one
  function of the arguments. The last host operation re-lays the 8192 rows as 4 × 2048: entry `(b, r, n)` of the result is
  entry `(b · 2048 + r, n)` of the array, which is `dotThenCorrect` at `(b, r, n)`.
-/
import proofs.«116233_j2362232013179_2_alg».proof.Proof.Entries
import Idealize.ShloMosaic.Lib.StableHlo.Run
import Idealize.ShloMosaic.Lib.Tactic

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo
open Idealize.ShloMosaic.ValueIdx Cert.QLinear
open Idealize.ShloMosaic.Pipeline (Dat)

variable (m : (ℓ : Loc nD τ sig) → Buf (Elt Ideal) ℓ) (ρ : Dev nD → PrngReg)

/-- The array the launch leaves: entry `(ρ, ν)` is `dotThenCorrect` at row `(ρ / 2048, ρ mod 2048)` and channel `ν`. -/
def outArr (c : Dev nD) : S8192x16384.Idx → EReal := fun i =>
  dotThenCorrect (m ((c : Thread nD τ).loc main_arg0)) (m ((c : Thread nD τ).loc main_arg1))
    (m ((c : Thread nD τ).loc main_arg2)) (m ((c : Thread nD τ).loc main_arg3))
    ⟨(i 0).val / 2048, by have h : (i 0).val < 8192 := (i 0).isLt; omega⟩
    ⟨(i 0).val % 2048, Nat.mod_lt _ (by decide)⟩ ⟨(i 1).val, (i 1).isLt⟩

/-- What the last point `t` of a contraction writes back is block `t` of that array. -/
theorem flushed_eq (c : Dev nD) (t : Fin cfg0.N) (hf : (cfg0.win 4).flush t = true) :
    (dats m 0 c).flushed 4 t = ((cfg0.win 4).blk t).view.read (Elt Ideal) (outArr m c) := by
  have h3 : t.val % 4 = 3 := (flush0_4 t).mp hf
  show (cfg0.win 4).cut (grid0.coords t) ((dats m 0 c).after 4 t) = _
  rw [after0_4]
  refine funext fun (y : S1024x1024.Idx) => ?_
  obtain ⟨p, q, rfl⟩ : ∃ (p q : Fin 1024), y = ix2 p q := ⟨y 0, y 1, eq_ix2 y⟩
  show ((outsAt0 m c t.val t.isLt).1 : Vec Ideal S1024x1024 .f32) (ix2 p q) = outArr m c (((cfg0.win 4).blk t).view.emb (ix2 p q))
  have e0 : ((((cfg0.win 4).blk t).view.emb (ix2 p q)) 0).val = t.val / 64 * 1024 + p.val := by
    show win0_4.index t 0 * 1024 + 1 * p.val = _
    rw [(Blocks.index_out t).1]; omega
  have e1 : ((((cfg0.win 4).blk t).view.emb (ix2 p q)) 1).val = t.val / 4 % 16 * 1024 + q.val := by
    show win0_4.index t 1 * 1024 + 1 * q.val = _
    rw [(Blocks.index_out t).2]; omega
  unfold outArr
  exact Entries.block_entry m c t h3 p q _ _ _
    (by show _ = ((((cfg0.win 4).blk t).view.emb (ix2 p q)) 0).val / 2048 * 2048 + ((((cfg0.win 4).blk t).view.emb (ix2 p q)) 0).val % 2048
        rw [e0]; omega)
    (by show ((((cfg0.win 4).blk t).view.emb (ix2 p q)) 1).val = _; exact e1)

/-- An index of the array is in point `t`'s block iff each coordinate is in the block's range on its axis. -/
theorem mem_blk (t : Fin cfg0.N) (i : S8192x16384.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v6).slice (win0_4.rect t)).set ↔ _
  rw [View.set_slice_whole, Rect.mem_set_unit]
  exact Iff.rfl

/-- Every index `(ρ, ν)` is in the block written at the last point of block row `ρ / 1024`, block column `ν / 1024`. -/
theorem cover (i : S8192x16384.Idx) : ∃ t : Fin cfg0.N, (cfg0.win 4).flush t = true ∧ i ∈ ((cfg0.win 4).blk t).view.set := by
  have h0 : (i 0).val < 8192 := (i 0).isLt
  have h1 : (i 1).val < 16384 := (i 1).isLt
  have hN : cfg0.N = 512 := N_0
  have hT : (i 0).val / 1024 * 64 + (i 1).val / 1024 * 4 + 3 < cfg0.N := by rw [hN]; omega
  refine ⟨⟨(i 0).val / 1024 * 64 + (i 1).val / 1024 * 4 + 3, hT⟩, (flush0_4 _).mpr (by show ((i 0).val / 1024 * 64 + (i 1).val / 1024 * 4 + 3) % 4 = 3; omega), ?_⟩
  rw [mem_blk]
  intro a
  match a with
  | ⟨0, _⟩ =>
    show win0_4.index ⟨_, hT⟩ 0 * 1024 ≤ (i 0).val ∧ (i 0).val < win0_4.index ⟨_, hT⟩ 0 * 1024 + 1024
    rw [(Blocks.index_out ⟨_, hT⟩).1]
    show ((i 0).val / 1024 * 64 + (i 1).val / 1024 * 4 + 3) / 64 * 1024 ≤ (i 0).val ∧ (i 0).val < ((i 0).val / 1024 * 64 + (i 1).val / 1024 * 4 + 3) / 64 * 1024 + 1024
    omega
  | ⟨1, _⟩ =>
    show win0_4.index ⟨_, hT⟩ 1 * 1024 ≤ (i 1).val ∧ (i 1).val < win0_4.index ⟨_, hT⟩ 1 * 1024 + 1024
    rw [(Blocks.index_out ⟨_, hT⟩).2]
    show ((i 0).val / 1024 * 64 + (i 1).val / 1024 * 4 + 3) / 4 % 16 * 1024 ≤ (i 1).val ∧ (i 1).val < ((i 0).val / 1024 * 64 + (i 1).val / 1024 * 4 + 3) / 4 % 16 * 1024 + 1024
    omega

/-- So the array ends holding that function. -/
theorem final (c : Dev nD) : (dats m 0 c).arrAt 4 cfg0.N = outArr m c :=
  (dats m 0 c).arrAt_eq_of_cover 4 (outArr m c) (flushed_eq m c) cover

/-- The last host operation re-lays the rows: entry `(b, r, n)` of the result is entry `(b · 2048 + r, n)` of the launch's array. -/
theorem tail_eq (c : Dev nD) :
    Pipeline.afterTail₀ cfgs (dats m) 0 (V0 m) [hostOps1] c main_v7
      = resultBlocked (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v6)
      = outArr m c := (Pipeline.withArrays_arr spec0 launch0.win.arr_inj c _ _ 4).trans (final m c)
  funext j
  show shapeCast S4x2048x16384 (Pipeline.withArrays (cfgs 0).spec c (V0 m c) (fun w => (dats m 0 c).arrAt w (cfgs 0).N)
    (Proc.devRef .tc main_v6)) shapeCasts_S8192x16384_S4x2048x16384 j = _
  rw [hw]
  have hj0 : (j 0).val < 4 := (j 0).isLt
  have hj1 : (j 1).val < 2048 := (j 1).isLt
  refine (shapeCast_apply (outArr m c) shapeCasts_S8192x16384_S4x2048x16384 j
    (ix2 (⟨(j 0).val * 2048 + (j 1).val, by omega⟩ : Fin 8192) (⟨(j 2).val, (j 2).isLt⟩ : Fin 16384)) ?_).trans ?_
  · rw [Shape.rowMajor_val_two, Shape.rowMajor_val_three]; rfl
  · have eb : ((j 0).val * 2048 + (j 1).val) / 2048 = (j 0).val := by omega
    have er : ((j 0).val * 2048 + (j 1).val) % 2048 = (j 1).val := by omega
    unfold outArr resultBlocked
    show dotThenCorrect _ _ _ _ ⟨((j 0).val * 2048 + (j 1).val) / 2048, _⟩ ⟨((j 0).val * 2048 + (j 1).val) % 2048, _⟩ ⟨(j 2).val, _⟩
      = dotThenCorrect _ _ _ _ ⟨(j 0).val, _⟩ ⟨(j 1).val, _⟩ ⟨(j 2).val, _⟩
    simp only [eb, er]

/-- THE RUN, READ: every weakly fair execution terminates with the result array at `resultBlocked` of the argument arrays
    and the four arguments as launched. -/
theorem run : θ_run defs (onTc (τ := τ) (main (F := Ideal))) ⟨m, fun _ => 0, ρ⟩ fun r => ∀ c : Dev nD,
      r.2.mem ((c.tc : Thread nD τ).loc main_v7)
          = resultBlocked (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.lean ====
/-
  A linear layer with integer weights, one scale and one zero point per output channel: the kernel against its reference.

  Both programs compute, for every row `(b, r)` of `x` and every output channel `n`,
      ∑ᵢ x(b, r, i) · ((q(n, i) − z(n)) · s(n))          (4096 features i).
  The reference forms the weights `(q − z) · s` and contracts once. The kernel contracts `x` with the raw integers `q`, the
  features in four blocks of 1024 accumulated across four grid points, accumulates the row's own sum alongside, and at the
  last block writes `s(n) · (∑ᵢ x · q − (∑ᵢ x) · z(n))`. The two agree by distributivity, which on the extended reals needs
  every `x` and every `s` to be a real number: that is what the precondition says, and it is used exactly there. Changes of
  float format on the way into the matrix product are the identity on the extended reals, and an integer is converted to the
  real number it denotes whatever the target format, so no constant and no rounding separates the two sides.

  The three frames are the generated ones (the reference's is its generated run with the result dropped). The idealization
  rewrote nothing, so there is nothing to preserve. The value claim joins the kernel's run (the result array as one function
  of the arguments, module KernelValue), the reference's run read index by index (module RefValue), finiteness from the
  precondition (module Finite) and the law between the two arrangements (module Spec).
-/
import proofs.«116233_j2362232013179_2_alg».proof.Defs
import proofs.«116233_j2362232013179_2_alg».proof.Proof.Gen.Kernel
import proofs.«116233_j2362232013179_2_alg».proof.Proof.Gen.Kernel.Frame
import proofs.«116233_j2362232013179_2_alg».proof.Proof.Gen.KernelIdeal
import proofs.«116233_j2362232013179_2_alg».proof.Proof.Gen.KernelIdeal.Frame
import proofs.«116233_j2362232013179_2_alg».proof.Proof.Gen.ReferenceIdeal
import proofs.«116233_j2362232013179_2_alg».proof.Proof.Gen.ReferenceIdeal.Run
import proofs.«116233_j2362232013179_2_alg».proof.Proof.Gen.ReferenceIdeal.Read
import proofs.«116233_j2362232013179_2_alg».proof.Proof.Gen.Pre_finite_inputs
import proofs.«116233_j2362232013179_2_alg».proof.Proof.Spec
import proofs.«116233_j2362232013179_2_alg».proof.Proof.Finite
import proofs.«116233_j2362232013179_2_alg».proof.Proof.RefValue
import proofs.«116233_j2362232013179_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the extended reals both programs end with the result array at `∑ᵢ x · ((q − z) · s)` of arguments that agree: the
    kernel's blocked, zero-point-corrected arrangement equals it because the precondition makes every `x` and `s` real. -/
theorem algebraic : Cert.algebraic_KernelIdeal_ReferenceIdeal := by
  intro m ρ m' ρ' hpre hagree
  refine ⟨fun c => Cert.QLinear.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.KValue.run m ρ)
    obtain ⟨hx, hs⟩ := Cert.QLinear.Finite.finite_of_fn _ _ _ _ (hpre c)
    exact Cert.QLinear.resultBlocked_eq_result _ _ _ _ hx hs
  · refine (θ_run Cert.ReferenceIdeal.defs _ _).mono (fun _ h c => ⟨?_, (h c).2⟩)
      (Cert.ReferenceIdeal.Value.run (F := Ideal) m' ρ')
    rw [(h c).1, Cert.ReferenceIdeal.Read.val_main_v8_eq, Cert.ReferenceIdeal.RefValue.val_eq_result,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
